-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x512 : Shape := ⟨2, ![256, 512]⟩
abbrev S1x512 : Shape := ⟨2, ![1, 512]⟩
abbrev S512x256 : Shape := ⟨2, ![512, 256]⟩
abbrev S1x256 : Shape := ⟨2, ![1, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S1x512 : S_.BroadcastsInDim S1x512 (![] : Fin 0 → Fin S1x512.rank)
  reducesTo_S1x512_S_d0_1 : S1x512.ReducesTo [0, 1] S_
  bcast_S_S512x256 : S_.BroadcastsInDim S512x256 (![] : Fin 0 → Fin S512x256.rank)
  reducesTo_S512x256_S_d0_1 : S512x256.ReducesTo [0, 1] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_arg4 : FVec F S1x256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S1x256 .f32 := Host.absf main_arg4
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  main_v23

def fn {F : FTy → Type} [FloatOps F] (main_arg0 : FVec F S65536x256 .f32) (main_arg1 : FVec F S256x512 .f32) (main_arg2 : FVec F S1x512 .f32) (main_arg3 : FVec F S512x256 .f32) (main_arg4 : FVec F S1x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_v13 main_v16
-- ==== Kernel.lean ====
abbrev S65536x256 : Shape := ⟨2, ![65536, 256]⟩
abbrev S256x512 : Shape := ⟨2, ![256, 512]⟩
abbrev S1x512 : Shape := ⟨2, ![1, 512]⟩
abbrev S512x256 : Shape := ⟨2, ![512, 256]⟩
abbrev S1x256 : Shape := ⟨2, ![1, 256]⟩
abbrev S8192x256 : Shape := ⟨2, ![8192, 256]⟩
abbrev S8192x512 : Shape := ⟨2, ![8192, 512]⟩

abbrev nBuf : Space → Nat
  | .hbm => 6
  | .vmem => 8
  | .smem => 0
  | _ => 0

abbrev bufTy : (tb : Table) → Fin (tcTables nBuf tb) → BufTy
  | .hbm, ⟨0, _⟩ => ⟨S65536x256, .f32⟩
  | .hbm, ⟨1, _⟩ => ⟨S256x512, .f32⟩
  | .hbm, ⟨2, _⟩ => ⟨S1x512, .f32⟩
  | .hbm, ⟨3, _⟩ => ⟨S512x256, .f32⟩
  | .hbm, ⟨4, _⟩ => ⟨S1x256, .f32⟩
  | .hbm, ⟨5, _⟩ => ⟨S65536x256, .f32⟩
  | .local _ .vmem, ⟨0, _⟩ => ⟨S8192x256, .f32⟩
  | .local _ .vmem, ⟨1, _⟩ => ⟨S8192x256, .f32⟩
  | .local _ .vmem, ⟨2, _⟩ => ⟨S256x512, .f32⟩
  | .local _ .vmem, ⟨3, _⟩ => ⟨S1x512, .f32⟩
  | .local _ .vmem, ⟨4, _⟩ => ⟨S512x256, .f32⟩
  | .local _ .vmem, ⟨5, _⟩ => ⟨S1x256, .f32⟩
  | .local _ .vmem, ⟨6, _⟩ => ⟨S8192x256, .f32⟩
  | .local _ .vmem, ⟨7, _⟩ => ⟨S8192x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S256x512_S256x512_0_0 : ∀ a, (![0, 0] : Fin 2 → Nat) a + S256x512.size a ≤ S256x512.size a
  h_S256x512 : 0 < S256x512.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  inb_S512x256_S512x256_0_0 : ∀ a, (![0, 0] : Fin 2 → Nat) a + S512x256.size a ≤ S512x256.size a
  h_S512x256 : 0 < S512x256.numel
  inb_S8192x256_S8192x256_0_0 : ∀ a, (![0, 0] : Fin 2 → Nat) a + S8192x256.size a ≤ S8192x256.size a
  h_S8192x256 : 0 < S8192x256.numel
  broadcasts_S1x512_S8192x512 : S1x512.Broadcasts S8192x512
  inb_S1x256_S1x256_0_0 : ∀ a, (![0, 0] : Fin 2 → Nat) a + S1x256.size a ≤ S1x256.size a
  h_S1x256 : 0 < S1x256.numel
  broadcasts_S1x256_S8192x256 : S1x256.Broadcasts S8192x256
  dot_S8192x256_S256x512_S8192x512_1_0_0_1_n_n_wf : DotDims.WF S8192x256 S256x512 S8192x512 [1] [0] [0] [1] [] []
  dot_S8192x512_S512x256_S8192x256_1_0_0_1_n_n_wf : DotDims.WF S8192x512 S512x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S65536x256.size a
  hwx0_0 : ∀ i : grid0.Coords, EltTy.bits .f32 = 32 ∨ (Rect.block (s := S65536x256) S8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x256.size a ≤ S65536x256.size a
  hwx0_5 : ∀ i : grid0.Coords, EltTy.bits .f32 = 32 ∨ (Rect.block (s := S65536x256) S8192x256.size (cc0_transform_5 i) (hinb0_5 i)).WholeWords (EltTy.packing .f32)

variable [Facts₀]

def dot_S8192x256_S256x512_S8192x512_1_0_0_1_n_n : DotDims S8192x256 S256x512 S8192x512 where
  lhsContracting := [1]
  rhsContracting := [0]
  lhsNonContracting := [0]
  rhsNonContracting := [1]
  lhsBatch := []
  rhsBatch := []
  wf := dot_S8192x256_S256x512_S8192x512_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S8192x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x256 : Shape := ⟨2, ![65536, 256]⟩
abbrev S256x512 : Shape := ⟨2, ![256, 512]⟩
abbrev S1x512 : Shape := ⟨2, ![1, 512]⟩
abbrev S512x256 : Shape := ⟨2, ![512, 256]⟩
abbrev S1x256 : Shape := ⟨2, ![1, 256]⟩
abbrev S1024x256 : Shape := ⟨2, ![1024, 256]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S65536x256, .f32⟩
  | .hbm, ⟨1, _⟩ => ⟨S256x512, .f32⟩
  | .hbm, ⟨2, _⟩ => ⟨S1x512, .f32⟩
  | .hbm, ⟨3, _⟩ => ⟨S512x256, .f32⟩
  | .hbm, ⟨4, _⟩ => ⟨S1x256, .f32⟩
  | .hbm, ⟨5, _⟩ => ⟨S65536x256, .f32⟩
  | .local _ .vmem, ⟨0, _⟩ => ⟨S1024x256, .f32⟩
  | .local _ .vmem, ⟨1, _⟩ => ⟨S1024x256, .f32⟩
  | .local _ .vmem, ⟨2, _⟩ => ⟨S256x512, .f32⟩
  | .local _ .vmem, ⟨3, _⟩ => ⟨S1x512, .f32⟩
  | .local _ .vmem, ⟨4, _⟩ => ⟨S512x256, .f32⟩
  | .local _ .vmem, ⟨5, _⟩ => ⟨S1x256, .f32⟩
  | .local _ .vmem, ⟨6, _⟩ => ⟨S1024x256, .f32⟩
  | .local _ .vmem, ⟨7, _⟩ => ⟨S1024x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1024x256_S1024x256_0_0 : ∀ a, (![0, 0] : Fin 2 → Nat) a + S1024x256.size a ≤ S1024x256.size a
  h_S1024x256 : 0 < S1024x256.numel
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  broadcasts_S1x512_S1024x512 : S1x512.Broadcasts S1024x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  broadcasts_S1x256_S1024x256 : S1x256.Broadcasts S1024x256
  dot_S1024x256_S256x512_S1024x512_1_0_0_1_n_n_wf : DotDims.WF S1024x256 S256x512 S1024x512 [1] [0] [0] [1] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S65536x256.size a
  hwx0_5 : ∀ i : grid0.Coords, EltTy.bits .f32 = 32 ∨ (Rect.block (s := S65536x256) S1024x256.size (cc0_transform_5 i) (hinb0_5 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.LibRowWise.lean ====
/-
  Row-wise layers on rank-2 arrays of extended reals.

  Every layer of the network is ROW-WISE: row r of its result is a function of row r of its input (and of a small
  parameter array).  "rowMap f x" applies a row function "f" to every row of "x".  The three row functions:
  "linRow w" (the row times the matrix "w": entry c is the sum over l of z l * w (l, c)), "reluRow b" (add the
  one-row array "b", then the maximum with zero) and "lsmRow b" (add "b", subtract the row's maximum, then subtract
  the logarithm of the sum of the exponentials: the logarithm of the softmax).  The row's maximum is the fold of
  "max" from minus infinity, which is how both a lane reduction and a host reduction read it.

  A row-wise layer commutes with cutting out a band of rows ("rowMap_band"): the band of the result is the result
  of the band.  That one fact is what lets a computation done band by band be compared with the whole computation.
-/
import Idealize.ShloMosaic.Lib.ValueIdx
import Idealize.ShloMosaic.PureOps.Ideal.Laws

noncomputable section

open scoped BigOperators

namespace GcnSpec

open Idealize.ShloMosaic Idealize.ShloMosaic.ValueIdx

/-- An n × k array of extended reals. -/
abbrev Arr (n k : ℕ) : Type := (⟨2, ![n, k]⟩ : Shape).Idx → EReal

/-- Row r of an array, as a function of the column. -/
def row {n k : ℕ} (x : Arr n k) (r : Fin n) : Fin k → EReal := fun l => x (ix2 r l)

/-- A row function applied to every row. -/
def rowMap {n k q : ℕ} (f : (Fin k → EReal) → Fin q → EReal) (x : Arr n k) : Arr n q :=
  fun i => f (row x ⟨(i 0).val, idx2_lt0 i⟩) ⟨(i 1).val, idx2_lt1 i⟩

theorem rowMap_ix2 {n k q : ℕ} (f : (Fin k → EReal) → Fin q → EReal) (x : Arr n k) (r : Fin n) (c : Fin q) :
    rowMap f x (ix2 r c) = f (row x r) c := rfl

/-- To show an array is "rowMap f x" it is enough to read it at every pair of coordinates. -/
theorem eq_rowMap {n k q : ℕ} (f : (Fin k → EReal) → Fin q → EReal) (x : Arr n k) (y : Arr n q)
    (h : ∀ (r : Fin n) (c : Fin q), y (ix2 r c) = f (row x r) c) : y = rowMap f x := by
  funext i
  obtain ⟨r, c, rfl⟩ : ∃ (r : Fin n) (c : Fin q), i = ix2 r c := ⟨i 0, i 1, eq_ix2 i⟩
  rw [h, rowMap_ix2]

/-- A band of rows: the band of the result is the result of the band.  "e₁" and "e₂" send an index of the band to
    the index of the whole array "o" rows further down, in the same column. -/
theorem rowMap_band {N n k q : ℕ} (f : (Fin k → EReal) → Fin q → EReal) (X : Arr N k) (o : ℕ)
    (e₁ : (⟨2, ![n, k]⟩ : Shape).Idx → (⟨2, ![N, k]⟩ : Shape).Idx)
    (e₂ : (⟨2, ![n, q]⟩ : Shape).Idx → (⟨2, ![N, q]⟩ : Shape).Idx)
    (h10 : ∀ j, (e₁ j 0).val = o + (j 0).val) (h11 : ∀ j, (e₁ j 1).val = (j 1).val)
    (h20 : ∀ j, (e₂ j 0).val = o + (j 0).val) (h21 : ∀ j, (e₂ j 1).val = (j 1).val)
    (j : (⟨2, ![n, q]⟩ : Shape).Idx) :
    rowMap f X (e₂ j) = rowMap f (fun y => X (e₁ y)) j := by
  unfold rowMap
  have hr : row X ⟨(e₂ j 0).val, idx2_lt0 (e₂ j)⟩ = row (fun y => X (e₁ y)) ⟨(j 0).val, idx2_lt0 j⟩ := by
    funext l
    unfold row
    refine congrArg X (funext fun a => Fin.ext ?_)
    match a with
    | ⟨0, _⟩ => show (e₂ j 0).val = (e₁ (ix2 ⟨(j 0).val, idx2_lt0 j⟩ l) 0).val; rw [h20, h10]; rfl
    | ⟨1, _⟩ => show l.val = (e₁ (ix2 ⟨(j 0).val, idx2_lt0 j⟩ l) 1).val; rw [h11]; rfl
  have hc : (⟨(e₂ j 1).val, idx2_lt1 (e₂ j)⟩ : Fin q) = ⟨(j 1).val, idx2_lt1 j⟩ := Fin.ext (h21 j)
  rw [hr, hc]

/-! ## The three row functions -/

/-- The row times a matrix. -/
def linRow {k q : ℕ} (w : Arr k q) (z : Fin k → EReal) : Fin q → EReal := fun c => ∑ l : Fin k, z l * w (ix2 l c)

/-- The float zero and minus infinity, kept as the words the programs spell them with. -/
def zeroF : EReal := Ideal.ofBits .f32 0x00000000#32
def negInfF : EReal := Ideal.ofBits .f32 0xFF800000#32

/-- Add the one-row array, then the maximum with zero. -/
def reluRow {k : ℕ} (b : Arr 1 k) (z : Fin k → EReal) : Fin k → EReal :=
  fun c => max (z c + b (ix2 (0 : Fin 1) c)) zeroF

/-- A row's maximum: the fold of "max" from minus infinity. -/
def rowMax {k : ℕ} (y : Fin k → EReal) : EReal := (Finset.univ : Finset (Fin k)).fold max negInfF y

/-- The row shifted by its maximum. -/
def shifted {k : ℕ} (y : Fin k → EReal) : Fin k → EReal := fun c => y c - rowMax y

/-- The logarithm of the softmax of a row. -/
def logSoftmax {k : ℕ} (y : Fin k → EReal) : Fin k → EReal :=
  fun c => shifted y c - Ideal.log (∑ l : Fin k, Ideal.exp (shifted y l))

/-- Add the one-row array, then the logarithm of the softmax. -/
def lsmRow {k : ℕ} (b : Arr 1 k) (z : Fin k → EReal) : Fin k → EReal :=
  logSoftmax fun c => z c + b (ix2 (0 : Fin 1) c)

/-- Minus infinity is the unit of "max". -/
theorem max_negInfF (y : EReal) : max negInfF y = y := by
  unfold negInfF; simp [Ideal.ofBits, Ideal.ieee]

theorem zeroF_eq : zeroF = 0 := Ideal.ofBits_zero_f32

/-! ## The layers -/

/-- The linear layer: every row times the matrix. -/
def lin {n k q : ℕ} (x : Arr n k) (w : Arr k q) : Arr n q := rowMap (linRow w) x
/-- Bias, then the maximum with zero. -/
def relu {n k : ℕ} (a : Arr n k) (b : Arr 1 k) : Arr n k := rowMap (reluRow b) a
/-- Bias, then the logarithm of the softmax along the row. -/
def lsm {n k : ℕ} (a : Arr n k) (b : Arr 1 k) : Arr n k := rowMap (lsmRow b) a

end GcnSpec

end
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.LibDot2.lean ====
/-
  The plain matrix product's dimension numbers, read at coordinates.

  A product of an n × k array with a k × q array that contracts the columns of the left operand against the rows of the
  right one, with no batch axes, carries the dimension numbers "left contracting [1], right contracting [0], left free
  [0], right free [1]".  For any record with these lists: one axis is contracted and its extent is k; the left operand is
  read at (row of the result, contraction position) and the right operand at (contraction position, column of the result).
-/
import Idealize.ShloMosaic.Lib.ValueIdx
import Idealize.ShloMosaic.PureOps.Ideal.Laws

namespace Dot2

open Idealize.ShloMosaic Idealize.ShloMosaic.ValueIdx

variable {n k q : ℕ} (d : DotDims (⟨2, ![n, k]⟩ : Shape) (⟨2, ![k, q]⟩ : Shape) (⟨2, ![n, q]⟩ : Shape))
  (h1 : d.lhsContracting = [1]) (h2 : d.rhsContracting = [0]) (h3 : d.lhsNonContracting = [0])
  (h4 : d.rhsNonContracting = [1]) (h5 : d.lhsBatch = []) (h6 : d.rhsBatch = [])

include h1 in
/-- One axis is contracted. -/
theorem rank_contr : d.contr.rank = 1 := by rw [d.rank_contr, h1]; rfl

include h1 in
/-- Its extent is the left operand's number of columns. -/
theorem size_contr (h0 : 0 < d.contr.rank) : d.contr.size ⟨0, h0⟩ = k := by
  have := d.size_contr 0 (by rw [h1]; exact Nat.one_pos)
  rw [this]
  simp only [h1]
  rfl

include h1 in
/-- The left operand's column is the contraction position. -/
theorem lhs1 (h0 : 0 < d.contr.rank) (j : (⟨2, ![n, q]⟩ : Shape).Idx) (c : d.contr.Idx) :
    (d.lhsIdx j c 1).val = (c ⟨0, h0⟩).val := d.lhsIdx_val_of_single h1 j c

include h2 in
/-- The right operand's row is the contraction position. -/
theorem rhs0 (h0 : 0 < d.contr.rank) (j : (⟨2, ![n, q]⟩ : Shape).Idx) (c : d.contr.Idx) :
    (d.rhsIdx j c 0).val = (c ⟨0, h0⟩).val := d.rhsIdx_val_of_single h2 j c

include h3 h5 in
/-- The left operand's row is the result's row. -/
theorem lhs0 (j : (⟨2, ![n, q]⟩ : Shape).Idx) (c : d.contr.Idx) : (d.lhsIdx j c 0).val = (j 0).val := by
  unfold DotDims.lhsIdx
  have hb : (0 : Fin 2) ∉ d.lhsBatch := by rw [h5]; exact List.not_mem_nil
  have hn : (0 : Fin 2) ∈ d.lhsNonContracting := by rw [h3]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3])

include h4 h6 h3 h5 in
/-- The right operand's column is the result's column. -/
theorem rhs1 (j : (⟨2, ![n, q]⟩ : Shape).Idx) (c : d.contr.Idx) : (d.rhsIdx j c 1).val = (j 1).val := by
  unfold DotDims.rhsIdx
  have hb : (1 : Fin 2) ∉ d.rhsBatch := by rw [h6]; exact List.not_mem_nil
  have hn : (1 : Fin 2) ∈ d.rhsNonContracting := by rw [h4]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3, h4])

end Dot2
-- ==== Proof.LibMlp.lean ====
/-
  A two-layer perceptron applied to every row of an array of extended reals, and the chains of vector operations
  that compute it.

  One row "z" of width d goes through the network as

      z  ↦  z · W1            (a row of width h: entry c is the sum over l of z l * W1 (l, c))
         ↦  max (· + b1, 0)   (the one-row array b1 added entry by entry, then the maximum with zero)
         ↦  · · W2            (a row of width a)
         ↦  · + b2            (the one-row array b2 added entry by entry).

  "net x W1 b1 W2 b2" applies this to every row of the n × d array "x".  Because each row of the result depends on
  the same row of "x" only, a band of rows of the result is the result of the band ("net_band"): this is what lets a
  computation carried out on bands of 8192 rows be compared with one carried out on bands of 1024 rows, both being
  bands of the one array "net" of all 65536 rows.

  A matrix unit's product onto the zero accumulator, contracting the left operand's columns against the right
  operand's rows, is "every row times the matrix" ("matmul_zero_lin"); adding a broadcast one-row array and taking
  the maximum with a broadcast zero is "hidden" on every row ("hidden_chain"); adding a broadcast one-row array is
  "shift" on every row ("shift_chain").  None of this uses finiteness: both sides are the same sums of the same
  products, so the statements hold for all extended reals.
-/
import Idealize.ShloMosaic.Lib.ValueIdx
import Idealize.ShloMosaic.Lib.ValueLayout
import Idealize.ShloMosaic.PureOps.Ideal.Laws
import proofs.«101252_g2000506213749581_pallasbulk_74_22_alg».proof.Proof.LibRowWise
import proofs.«101252_g2000506213749581_pallasbulk_74_22_alg».proof.Proof.LibMatProd
import proofs.«101252_g2000506213749581_pallasbulk_74_22_alg».proof.Proof.LibDot2

noncomputable section

open scoped BigOperators

namespace Mlp

open Idealize.ShloMosaic Idealize.ShloMosaic.ValueIdx GcnSpec

/-! ## The network on one row and on every row -/

/-- Add the one-row array "b" to a row, then take the maximum with zero. -/
def hidden {k : ℕ} (b : Arr 1 k) (z : Fin k → EReal) : Fin k → EReal :=
  fun c => max (z c + b (ix2 (0 : Fin 1) c)) 0

/-- Add the one-row array "b" to a row. -/
def shift {k : ℕ} (b : Arr 1 k) (z : Fin k → EReal) : Fin k → EReal :=
  fun c => z c + b (ix2 (0 : Fin 1) c)

/-- One row through the two layers. -/
def netRow {d h a : ℕ} (w1 : Arr d h) (b1 : Arr 1 h) (w2 : Arr h a) (b2 : Arr 1 a) (z : Fin d → EReal) :
    Fin a → EReal :=
  shift b2 (linRow w2 (hidden b1 (linRow w1 z)))

/-- Every row through the two layers. -/
def net {n d h a : ℕ} (x : Arr n d) (w1 : Arr d h) (b1 : Arr 1 h) (w2 : Arr h a) (b2 : Arr 1 a) : Arr n a :=
  rowMap (netRow w1 b1 w2 b2) x

/-- Row r of a row-wise layer's result is the row function of row r. -/
theorem row_rowMap {n k q : ℕ} (f : (Fin k → EReal) → Fin q → EReal) (x : Arr n k) (r : Fin n) :
    row (rowMap f x) r = f (row x r) := rfl

/-- Two row-wise layers in a row are one row-wise layer. -/
theorem rowMap_rowMap {n k q p : ℕ} (f : (Fin q → EReal) → Fin p → EReal) (g : (Fin k → EReal) → Fin q → EReal)
    (x : Arr n k) : rowMap f (rowMap g x) = rowMap (fun z => f (g z)) x := rfl

/-- The four layers one after the other are the network. -/
theorem layers_eq_net {n d h a : ℕ} (x : Arr n d) (w1 : Arr d h) (b1 : Arr 1 h) (w2 : Arr h a) (b2 : Arr 1 a) :
    rowMap (shift b2) (rowMap (linRow w2) (rowMap (hidden b1) (rowMap (linRow w1) x))) = net x w1 b1 w2 b2 := rfl

/-- A band of rows of the network's result is the network's result on the band.  "e₁" and "e₂" send an index of the
    band to the index of the whole array "o" rows further down, in the same column. -/
theorem net_band {N n d h a : ℕ} (X : Arr N d) (w1 : Arr d h) (b1 : Arr 1 h) (w2 : Arr h a) (b2 : Arr 1 a) (o : ℕ)
    (e₁ : (⟨2, ![n, d]⟩ : Shape).Idx → (⟨2, ![N, d]⟩ : Shape).Idx)
    (e₂ : (⟨2, ![n, a]⟩ : Shape).Idx → (⟨2, ![N, a]⟩ : Shape).Idx)
    (h10 : ∀ j, (e₁ j 0).val = o + (j 0).val) (h11 : ∀ j, (e₁ j 1).val = (j 1).val)
    (h20 : ∀ j, (e₂ j 0).val = o + (j 0).val) (h21 : ∀ j, (e₂ j 1).val = (j 1).val)
    (j : (⟨2, ![n, a]⟩ : Shape).Idx) :
    net (fun y => X (e₁ y)) w1 b1 w2 b2 j = net X w1 b1 w2 b2 (e₂ j) :=
  (rowMap_band (netRow w1 b1 w2 b2) X o e₁ e₂ h10 h11 h20 h21 j).symm

/-! ## The operation chains -/

/-- A matrix unit's product of rank-2 operands onto the zero accumulator, its dimension numbers those of the plain
    product (left columns against right rows, no batch axes), is every row of the left operand times the right one. -/
theorem matmul_zero_lin {n k q : ℕ} {φ₁ φ₂ : FTy}
    (dd : DotDims (⟨2, ![n, k]⟩ : Shape) (⟨2, ![k, q]⟩ : Shape) (⟨2, ![n, q]⟩ : Shape)) (prec : Option ContractPrecision)
    (h1 : dd.lhsContracting = [1]) (h2 : dd.rhsContracting = [0]) (h3 : dd.lhsNonContracting = [0])
    (h4 : dd.rhsNonContracting = [1]) (h5 : dd.lhsBatch = []) (h6 : dd.rhsBatch = [])
    (lhs : FVec Ideal (⟨2, ![n, k]⟩ : Shape) φ₁) (rhs : FVec Ideal (⟨2, ![k, q]⟩ : Shape) φ₂) :
    matmul dd prec lhs rhs (constant (F := Ideal) (⟨2, ![n, q]⟩ : Shape) .f32 0x00000000#32)
      = rowMap (linRow rhs) lhs := by
  have hr : dd.contr.rank = 1 := Dot2.rank_contr dd h1
  have h0 : 0 < dd.contr.rank := by omega
  exact eq_rowMap _ _ _ fun r c =>
    (MatProd.matmul_zero_entry dd prec hr (Dot2.size_contr dd h1 h0) (Dot2.lhs0 dd h3 h5) (Dot2.lhs1 dd h1 h0)
      (Dot2.rhs0 dd h2 h0) (Dot2.rhs1 dd h3 h4 h5 h6) lhs rhs r c).trans rfl

/-- A one-row array broadcast over the rows and added, then the maximum with a splat scalar that is zero. -/
theorem hidden_chain {n k : ℕ} {φ : FTy} (z : FVec Ideal (⟨2, ![n, k]⟩ : Shape) φ)
    (b : FVec Ideal (⟨2, ![1, k]⟩ : Shape) φ) (hb : (⟨2, ![1, k]⟩ : Shape).Broadcasts ⟨2, ![n, k]⟩)
    (zero : Ideal φ) (hz : (zero : EReal) = 0) :
    maximumf (addf z (broadcastTo ⟨2, ![n, k]⟩ b hb)) (broadcast ⟨2, ![n, k]⟩ zero) = rowMap (hidden b) z := by
  refine eq_rowMap _ _ _ fun r c => ?_
  rw [maximumf_apply, addf_apply, broadcast_apply, broadcastTo_1b_ab_apply, hz]
  rfl

/-- A one-row array broadcast over the rows and added. -/
theorem shift_chain {n k : ℕ} {φ : FTy} (z : FVec Ideal (⟨2, ![n, k]⟩ : Shape) φ)
    (b : FVec Ideal (⟨2, ![1, k]⟩ : Shape) φ) (hb : (⟨2, ![1, k]⟩ : Shape).Broadcasts ⟨2, ![n, k]⟩) :
    addf z (broadcastTo ⟨2, ![n, k]⟩ b hb) = rowMap (shift b) z := by
  refine eq_rowMap _ _ _ fun r c => ?_
  rw [addf_apply, broadcastTo_1b_ab_apply]
  rfl

/-- The bf16 zero word denotes zero. -/
theorem zero_bf16 : (FloatOps.ofBits (F := Ideal) .bf16 0x0000#16 : EReal) = 0 := by
  rw [Ideal.ofBits_def]; simp [Ideal.ofBits, Ideal.ieee]

/-- The f32 zero word denotes zero. -/
theorem zero_f32 : (FloatOps.ofBits (F := Ideal) .f32 0x00000000#32 : EReal) = 0 := by
  rw [Ideal.ofBits_def]; exact Ideal.ofBits_zero_f32

end Mlp

end
-- ==== Proof.KernelValue.lean ====
/-
  The value of the kernel that works on bands of 8192 rows: after its run the result array holds the two-layer network
  "Mlp.net" of the argument arrays, on all 65536 rows.

  The body at one grid point stores the network applied to the point's block of 8192 rows of the first argument
  ("pay_eq").  The weight matrices' and bias rows' windows show the whole of their arrays at every point, the first
  argument's window and the result's window show the band of rows 8192·t … 8192·t + 8191 at point t ("idx_facts").
  Since every row of the network's result depends on the same row of the input only, what point t writes back is
  exactly that band of the network's result on all rows ("flushed_eq"); the eight bands tile the 65536 rows
  ("cover"), so the array ends holding the network's result ("final", "run").
-/
import proofs.«101252_g2000506213749581_pallasbulk_74_22_alg».proof.Proof.Gen.KernelIdeal.Value
import proofs.«101252_g2000506213749581_pallasbulk_74_22_alg».proof.Proof.LibMlp
import Idealize.ShloMosaic.Lib.Pipeline.Value

noncomputable section

open Idealize.ShloMosaic Idealize.ShloMosaic.TcCoe Idealize.SL.Sem
open Idealize.ShloMosaic.Pipeline (Dat)

namespace Cert.KernelIdeal.Net

open Cert.KernelIdeal Cert.KernelIdeal.Gen Cert.KernelIdeal.Value Idealize.ShloMosaic.ValueIdx GcnSpec

variable (m : (ℓ : Loc nD τ sig) → Buf (Elt Ideal) ℓ) (ρ : Dev nD → PrngReg)

/-- The network on all 65536 rows of the argument arrays as core "c" finds them. -/
def G (c : Dev nD) : S65536x256.Idx → EReal :=
  Mlp.net (m ((c : Thread nD τ).loc main_arg0) : S65536x256.Idx → EReal)
    (m ((c : Thread nD τ).loc main_arg1) : S256x512.Idx → EReal)
    (m ((c : Thread nD τ).loc main_arg2) : S1x512.Idx → EReal)
    (m ((c : Thread nD τ).loc main_arg3) : S512x256.Idx → EReal)
    (m ((c : Thread nD τ).loc main_arg4) : S1x256.Idx → EReal)

theorem hz : (![0, 0] : Fin 2 → Nat) = fun _ => 0 := funext fun a => by fin_cases a <;> rfl

/-! ## The body on one block -/

/-- What the body stores is the network on its block of 8192 rows: two products onto zero accumulators are "every row
    times the matrix", the bias rows are broadcast and added, the maximum is taken with a splat zero; the changes of float format in between are the identity on extended reals. -/
theorem pay_eq (v0 : Vec Ideal S256x512 .f32) (v2 : Vec Ideal S1x512 .f32) (v4 : Vec Ideal S512x256 .f32)
    (v6 : Vec Ideal S8192x256 .f32) (v15 : Vec Ideal S1x256 .f32) :
    k0_pay1 (F := Ideal) v0 v2 v4 v6 v15 = Mlp.net v6 v0 v2 v4 v15 := by
  have e : k0_pay1 (F := Ideal) v0 v2 v4 v6 v15
      = addf (matmul (φ₁ := .bf16) (φ₂ := .bf16) dot_S8192x512_S512x256_S8192x256_1_0_0_1_n_n none (maximumf (φ := .bf16) (addf (φ := .bf16) (matmul (φ₁ := .bf16) (φ₂ := .bf16) dot_S8192x256_S256x512_S8192x512_1_0_0_1_n_n none v6 v0
              (constant (F := Ideal) S8192x512 .f32 0x00000000#32)) (broadcastTo S8192x512 v2 broadcasts_S1x512_S8192x512))
            (broadcast S8192x512 (Scalar.ofBits (F := Ideal) .bf16 0x0000#16))) v4 (constant (F := Ideal) S8192x256 .f32 0x00000000#32))
          (broadcastTo S8192x256 v15 broadcasts_S1x256_S8192x256) := rfl
  rw [e, Mlp.matmul_zero_lin _ _ rfl rfl rfl rfl rfl rfl, Mlp.matmul_zero_lin _ _ rfl rfl rfl rfl rfl rfl,
    Mlp.hidden_chain _ _ _ _ Mlp.zero_bf16, Mlp.shift_chain]
  rfl

/-! ## The windows' blocks -/

/-- The printed index maps, decided over the grid: the row blocks of the first operand and of the result move with
    the point, every other window's block is the whole of its array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The first weight matrix's block at any point is the whole matrix. -/
theorem iblk1 (c : Dev nD) (t : Fin cfg0.N) :
    (iblk m c 1 t : S256x512.Idx → EReal) = (m ((c : Thread nD τ).loc main_arg1) : S256x512.Idx → EReal) := by
  obtain ⟨-, -, e0, e1, -⟩ := idx_facts t
  funext y
  unfold iblk
  rw [View.read_apply]
  show V m c main_arg1 _ = V m c main_arg1 y
  congr 1
  funext a
  apply Fin.ext
  match a with
  | ⟨0, _⟩ => show win0_1.index t (0 : Fin 2) * 256 + 1 * (y 0).val = (y 0).val; rw [e0]; omega
  | ⟨1, _⟩ => show win0_1.index t (1 : Fin 2) * 512 + 1 * (y 1).val = (y 1).val; rw [e1]; omega

/-- The first bias row's block at any point is the whole row. -/
theorem iblk2 (c : Dev nD) (t : Fin cfg0.N) :
    (iblk m c 2 t : S1x512.Idx → EReal) = (m ((c : Thread nD τ).loc main_arg2) : S1x512.Idx → EReal) := by
  obtain ⟨-, -, -, -, e0, e1, -⟩ := idx_facts t
  funext y
  unfold iblk
  rw [View.read_apply]
  show V m c main_arg2 _ = V m c main_arg2 y
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 512 + 1 * (y 1).val = (y 1).val; rw [e1]; omega

/-- The second weight matrix's block at any point is the whole matrix. -/
theorem iblk3 (c : Dev nD) (t : Fin cfg0.N) :
    (iblk m c 3 t : S512x256.Idx → EReal) = (m ((c : Thread nD τ).loc main_arg3) : S512x256.Idx → EReal) := by
  obtain ⟨-, -, -, -, -, -, e0, e1, -⟩ := idx_facts t
  funext y
  unfold iblk
  rw [View.read_apply]
  show V m c main_arg3 _ = V m c main_arg3 y
  congr 1
  funext a
  apply Fin.ext
  match a with
  | ⟨0, _⟩ => show win0_3.index t (0 : Fin 2) * 512 + 1 * (y 0).val = (y 0).val; rw [e0]; omega
  | ⟨1, _⟩ => show win0_3.index t (1 : Fin 2) * 256 + 1 * (y 1).val = (y 1).val; rw [e1]; omega

/-- The second bias row's block at any point is the whole row. -/
theorem iblk4 (c : Dev nD) (t : Fin cfg0.N) :
    (iblk m c 4 t : S1x256.Idx → EReal) = (m ((c : Thread nD τ).loc main_arg4) : S1x256.Idx → EReal) := by
  obtain ⟨-, -, -, -, -, -, -, -, e0, e1, -⟩ := idx_facts t
  funext y
  unfold iblk
  rw [View.read_apply]
  show V m c main_arg4 _ = V m c main_arg4 y
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega

/-- The first operand's block at point "t" is the band of 8192 rows of the argument that starts at row 8192·t. -/
theorem iblk0 (c : Dev nD) (t : Fin cfg0.N) :
    (iblk m c 0 t : S8192x256.Idx → EReal)
      = fun y => (m ((c : Thread nD τ).loc main_arg0) : S65536x256.Idx → EReal) (((cfg0.win 0).blk t).view.emb y) := rfl

/-! ## From the blocks to the array -/

/-- What point "t" writes back is its band of rows of the network's result on all rows: a band of the result is the
    result of the band. -/
theorem flushed_eq (c : Dev nD) (t : Fin cfg0.N) :
    (dats m 0 c).flushed 5 t = ((cfg0.win 5).blk t).view.read (Elt Ideal) (G m c) := by
  rw [flushed5]
  unfold out0_5
  rw [View.canon_unit_zero hz]
  simp only [View.ld_unit_zero (S := S256x512) hz, View.ld_unit_zero (S := S1x512) hz, View.ld_unit_zero (S := S512x256) hz,
    View.ld_unit_zero (S := S8192x256) hz, View.ld_unit_zero (S := S1x256) hz]
  rw [pay_eq, iblk1, iblk2, iblk3, iblk4, iblk0]
  obtain ⟨a0, a1, -, -, -, -, -, -, -, -, z0, z1⟩ := idx_facts t
  funext j
  show Mlp.net (fun y => (m ((c : Thread nD τ).loc main_arg0) : S65536x256.Idx → EReal) (((cfg0.win 0).blk t).view.emb y))
      (m ((c : Thread nD τ).loc main_arg1) : S256x512.Idx → EReal) (m ((c : Thread nD τ).loc main_arg2) : S1x512.Idx → EReal)
      (m ((c : Thread nD τ).loc main_arg3) : S512x256.Idx → EReal) (m ((c : Thread nD τ).loc main_arg4) : S1x256.Idx → EReal) j
    = G m c (((cfg0.win 5).blk t).view.emb j)
  unfold G
  refine Mlp.net_band _ _ _ _ _ (8192 * t.val) _ _ (fun y => ?_) (fun y => ?_) (fun y => ?_) (fun y => ?_) j
  · show win0_0.index t (0 : Fin 2) * 8192 + 1 * (y 0).val = 8192 * t.val + (y 0).val; rw [a0]; omega
  · show win0_0.index t (1 : Fin 2) * 256 + 1 * (y 1).val = (y 1).val; rw [a1]; omega
  · show win0_5.index t (0 : Fin 2) * 8192 + 1 * (y 0).val = 8192 * t.val + (y 0).val; rw [z0]; omega
  · show win0_5.index t (1 : Fin 2) * 256 + 1 * (y 1).val = (y 1).val; rw [z1]; omega

/-- An index of the result array is in point "t"'s block iff each coordinate is in the block's range on its axis. -/
theorem mem_blk (t : Fin cfg0.N) (i : S65536x256.Idx) :
    i ∈ ((cfg0.win 5).blk t).view.set ↔ ∀ a : Fin 2, win0_5.index t a * S8192x256.size a ≤ (i a).val ∧ (i a).val < win0_5.index t a * S8192x256.size a + S8192x256.size a := by
  show i ∈ ((View.whole main_v0).slice (win0_5.rect t)).set ↔ _
  rw [View.set_slice_whole, Rect.mem_set_unit]
  exact Iff.rfl

/-- Every index of the result array is in the block of the point its row falls to: the bands tile the rows. -/
theorem cover (i : S65536x256.Idx) : ∃ t : Fin cfg0.N, (cfg0.win 5).flush t = true ∧ i ∈ ((cfg0.win 5).blk t).view.set := by
  have hi0 : (i 0).val < 65536 := (i 0).isLt
  have hi1 : (i 1).val < 256 := (i 1).isLt
  have hN : cfg0.N = 8 := N_0
  let t : Fin cfg0.N := ⟨(i 0).val / 8192, by rw [hN]; omega⟩
  obtain ⟨-, -, -, -, -, -, -, -, -, -, z0, z1⟩ := idx_facts t
  have ht : t.val = (i 0).val / 8192 := rfl
  refine ⟨t, flush0_5 t, ?_⟩
  rw [mem_blk]
  intro a
  match a with
  | ⟨0, _⟩ => show win0_5.index t (0 : Fin 2) * 8192 ≤ (i 0).val ∧ (i 0).val < win0_5.index t (0 : Fin 2) * 8192 + 8192; rw [z0, ht]; omega
  | ⟨1, _⟩ => show win0_5.index t (1 : Fin 2) * 256 ≤ (i 1).val ∧ (i 1).val < win0_5.index t (1 : Fin 2) * 256 + 256; rw [z1]; omega

/-- The result array after the run is the network on all rows. -/
theorem final (c : Dev nD) : (dats m 0 c).arrAt 5 cfg0.N = G m c :=
  (dats m 0 c).arrAt_eq_of_cover 5 (G m c) (fun t _ => flushed_eq m c t) cover

/-- The run, read: the result array at the network of the argument arrays, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Net

end
-- ==== Proof.ReferenceValue.lean ====
/-
  The value of the program that works on bands of 1024 rows: after its run the result array holds the two-layer network
  "Mlp.net" of the argument arrays, on all 65536 rows.

  The body at one grid point stores the network applied to the point's block of 1024 rows of the first argument
  ("pay_eq").  The weight matrices' and bias rows' windows show the whole of their arrays at every point, the first
  argument's window and the result's window show the band of rows 1024·t … 1024·t + 1023 at point t ("idx_facts").
  Since every row of the network's result depends on the same row of the input only, what point t writes back is
  exactly that band of the network's result on all rows ("flushed_eq"); the sixty-four bands tile the 65536 rows
  ("cover"), so the array ends holding the network's result ("final", "run").
-/
import proofs.«101252_g2000506213749581_pallasbulk_74_22_alg».proof.Proof.Gen.ReferenceIdeal.Value
import proofs.«101252_g2000506213749581_pallasbulk_74_22_alg».proof.Proof.LibMlp
import Idealize.ShloMosaic.Lib.Pipeline.Value

noncomputable section

open Idealize.ShloMosaic Idealize.ShloMosaic.TcCoe Idealize.SL.Sem
open Idealize.ShloMosaic.Pipeline (Dat)

namespace Cert.ReferenceIdeal.Net

open Cert.ReferenceIdeal Cert.ReferenceIdeal.Gen Cert.ReferenceIdeal.Value Idealize.ShloMosaic.ValueIdx GcnSpec

variable (m : (ℓ : Loc nD τ sig) → Buf (Elt Ideal) ℓ) (ρ : Dev nD → PrngReg)

/-- The network on all 65536 rows of the argument arrays as core "c" finds them. -/
def G (c : Dev nD) : S65536x256.Idx → EReal :=
  Mlp.net (m ((c : Thread nD τ).loc main_arg0) : S65536x256.Idx → EReal)
    (m ((c : Thread nD τ).loc main_arg1) : S256x512.Idx → EReal)
    (m ((c : Thread nD τ).loc main_arg2) : S1x512.Idx → EReal)
    (m ((c : Thread nD τ).loc main_arg3) : S512x256.Idx → EReal)
    (m ((c : Thread nD τ).loc main_arg4) : S1x256.Idx → EReal)

theorem hz : (![0, 0] : Fin 2 → Nat) = fun _ => 0 := funext fun a => by fin_cases a <;> rfl

/-! ## The body on one block -/

/-- What the body stores is the network on its block of 1024 rows: two products onto zero accumulators are "every row
    times the matrix", the bias rows are broadcast and added, the maximum is taken with a splat zero. -/
theorem pay_eq (v0 : Vec Ideal S256x512 .f32) (v2 : Vec Ideal S1x512 .f32) (v4 : Vec Ideal S512x256 .f32)
    (v6 : Vec Ideal S1024x256 .f32) (v15 : Vec Ideal S1x256 .f32) :
    k0_pay1 (F := Ideal) v6 v0 v2 v4 v15 = Mlp.net v6 v0 v2 v4 v15 := by
  have e : k0_pay1 (F := Ideal) v6 v0 v2 v4 v15
      = addf (matmul (φ₁ := .f32) (φ₂ := .f32) dot_S1024x512_S512x256_S1024x256_1_0_0_1_n_n (some .fp32) (maximumf (φ := .f32) (addf (φ := .f32) (matmul (φ₁ := .f32) (φ₂ := .f32) dot_S1024x256_S256x512_S1024x512_1_0_0_1_n_n (some .fp32) v6 v0
              (constant (F := Ideal) S1024x512 .f32 0x00000000#32)) (broadcastTo S1024x512 v2 broadcasts_S1x512_S1024x512))
            (broadcast S1024x512 (Scalar.ofBits (F := Ideal) .f32 0x00000000#32))) v4 (constant (F := Ideal) S1024x256 .f32 0x00000000#32))
          (broadcastTo S1024x256 v15 broadcasts_S1x256_S1024x256) := rfl
  rw [e, Mlp.matmul_zero_lin _ _ rfl rfl rfl rfl rfl rfl, Mlp.matmul_zero_lin _ _ rfl rfl rfl rfl rfl rfl,
    Mlp.hidden_chain _ _ _ _ Mlp.zero_f32, Mlp.shift_chain]
  rfl

/-! ## The windows' blocks -/

/-- The printed index maps, decided over the grid: the row blocks of the first operand and of the result move with
    the point, every other window's block is the whole of its array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The first weight matrix's block at any point is the whole matrix. -/
theorem iblk1 (c : Dev nD) (t : Fin cfg0.N) :
    (iblk m c 1 t : S256x512.Idx → EReal) = (m ((c : Thread nD τ).loc main_arg1) : S256x512.Idx → EReal) := by
  obtain ⟨-, -, e0, e1, -⟩ := idx_facts t
  funext y
  unfold iblk
  rw [View.read_apply]
  show V m c main_arg1 _ = V m c main_arg1 y
  congr 1
  funext a
  apply Fin.ext
  match a with
  | ⟨0, _⟩ => show win0_1.index t (0 : Fin 2) * 256 + 1 * (y 0).val = (y 0).val; rw [e0]; omega
  | ⟨1, _⟩ => show win0_1.index t (1 : Fin 2) * 512 + 1 * (y 1).val = (y 1).val; rw [e1]; omega

/-- The first bias row's block at any point is the whole row. -/
theorem iblk2 (c : Dev nD) (t : Fin cfg0.N) :
    (iblk m c 2 t : S1x512.Idx → EReal) = (m ((c : Thread nD τ).loc main_arg2) : S1x512.Idx → EReal) := by
  obtain ⟨-, -, -, -, e0, e1, -⟩ := idx_facts t
  funext y
  unfold iblk
  rw [View.read_apply]
  show V m c main_arg2 _ = V m c main_arg2 y
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 512 + 1 * (y 1).val = (y 1).val; rw [e1]; omega

/-- The second weight matrix's block at any point is the whole matrix. -/
theorem iblk3 (c : Dev nD) (t : Fin cfg0.N) :
    (iblk m c 3 t : S512x256.Idx → EReal) = (m ((c : Thread nD τ).loc main_arg3) : S512x256.Idx → EReal) := by
  obtain ⟨-, -, -, -, -, -, e0, e1, -⟩ := idx_facts t
  funext y
  unfold iblk
  rw [View.read_apply]
  show V m c main_arg3 _ = V m c main_arg3 y
  congr 1
  funext a
  apply Fin.ext
  match a with
  | ⟨0, _⟩ => show win0_3.index t (0 : Fin 2) * 512 + 1 * (y 0).val = (y 0).val; rw [e0]; omega
  | ⟨1, _⟩ => show win0_3.index t (1 : Fin 2) * 256 + 1 * (y 1).val = (y 1).val; rw [e1]; omega

/-- The second bias row's block at any point is the whole row. -/
theorem iblk4 (c : Dev nD) (t : Fin cfg0.N) :
    (iblk m c 4 t : S1x256.Idx → EReal) = (m ((c : Thread nD τ).loc main_arg4) : S1x256.Idx → EReal) := by
  obtain ⟨-, -, -, -, -, -, -, -, e0, e1, -⟩ := idx_facts t
  funext y
  unfold iblk
  rw [View.read_apply]
  show V m c main_arg4 _ = V m c main_arg4 y
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega

/-- The first operand's block at point "t" is the band of 1024 rows of the argument that starts at row 1024·t. -/
theorem iblk0 (c : Dev nD) (t : Fin cfg0.N) :
    (iblk m c 0 t : S1024x256.Idx → EReal)
      = fun y => (m ((c : Thread nD τ).loc main_arg0) : S65536x256.Idx → EReal) (((cfg0.win 0).blk t).view.emb y) := rfl

/-! ## From the blocks to the array -/

/-- What point "t" writes back is its band of rows of the network's result on all rows: a band of the result is the
    result of the band. -/
theorem flushed_eq (c : Dev nD) (t : Fin cfg0.N) :
    (dats m 0 c).flushed 5 t = ((cfg0.win 5).blk t).view.read (Elt Ideal) (G m c) := by
  rw [flushed5]
  unfold out0_5
  rw [View.canon_unit_zero hz]
  simp only [View.ld_unit_zero (S := S256x512) hz, View.ld_unit_zero (S := S1x512) hz, View.ld_unit_zero (S := S512x256) hz,
    View.ld_unit_zero (S := S1024x256) hz, View.ld_unit_zero (S := S1x256) hz]
  rw [pay_eq, iblk1, iblk2, iblk3, iblk4, iblk0]
  obtain ⟨a0, a1, -, -, -, -, -, -, -, -, z0, z1⟩ := idx_facts t
  funext j
  show Mlp.net (fun y => (m ((c : Thread nD τ).loc main_arg0) : S65536x256.Idx → EReal) (((cfg0.win 0).blk t).view.emb y))
      (m ((c : Thread nD τ).loc main_arg1) : S256x512.Idx → EReal) (m ((c : Thread nD τ).loc main_arg2) : S1x512.Idx → EReal)
      (m ((c : Thread nD τ).loc main_arg3) : S512x256.Idx → EReal) (m ((c : Thread nD τ).loc main_arg4) : S1x256.Idx → EReal) j
    = G m c (((cfg0.win 5).blk t).view.emb j)
  unfold G
  refine Mlp.net_band _ _ _ _ _ (1024 * t.val) _ _ (fun y => ?_) (fun y => ?_) (fun y => ?_) (fun y => ?_) j
  · show win0_0.index t (0 : Fin 2) * 1024 + 1 * (y 0).val = 1024 * t.val + (y 0).val; rw [a0]; omega
  · show win0_0.index t (1 : Fin 2) * 256 + 1 * (y 1).val = (y 1).val; rw [a1]; omega
  · show win0_5.index t (0 : Fin 2) * 1024 + 1 * (y 0).val = 1024 * t.val + (y 0).val; rw [z0]; omega
  · show win0_5.index t (1 : Fin 2) * 256 + 1 * (y 1).val = (y 1).val; rw [z1]; omega

/-- An index of the result array is in point "t"'s block iff each coordinate is in the block's range on its axis. -/
theorem mem_blk (t : Fin cfg0.N) (i : S65536x256.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v0).slice (win0_5.rect t)).set ↔ _
  rw [View.set_slice_whole, Rect.mem_set_unit]
  exact Iff.rfl

/-- Every index of the result array is in the block of the point its row falls to: the bands tile the rows. -/
theorem cover (i : S65536x256.Idx) : ∃ t : Fin cfg0.N, (cfg0.win 5).flush t = true ∧ i ∈ ((cfg0.win 5).blk t).view.set := by
  have hi0 : (i 0).val < 65536 := (i 0).isLt
  have hi1 : (i 1).val < 256 := (i 1).isLt
  have hN : cfg0.N = 64 := N_0
  let t : Fin cfg0.N := ⟨(i 0).val / 1024, by rw [hN]; omega⟩
  obtain ⟨-, -, -, -, -, -, -, -, -, -, z0, z1⟩ := idx_facts t
  have ht : t.val = (i 0).val / 1024 := rfl
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; rw [z0, ht]; omega
  | ⟨1, _⟩ => show win0_5.index t (1 : Fin 2) * 256 ≤ (i 1).val ∧ (i 1).val < win0_5.index t (1 : Fin 2) * 256 + 256; rw [z1]; omega

/-- The result array after the run is the network on all rows. -/
theorem final (c : Dev nD) : (dats m 0 c).arrAt 5 cfg0.N = G m c :=
  (dats m 0 c).arrAt_eq_of_cover 5 (G m c) (fun t _ => flushed_eq m c t) cover

/-- The run, read: the result array at the network of the argument arrays, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.ReferenceIdeal.Net

end
-- ==== Proof.lean ====
/-
  Two programs compute the same two-layer perceptron of the same five argument arrays,

      y = max (x · W1 + b1, 0) · W2 + b2        (x: 65536 × 256, W1: 256 × 512, b1: 1 × 512, W2: 512 × 256, b2: 1 × 256),

  and end with equal result arrays as extended reals.  One works on eight bands of 8192 rows of x and changes the float
  format of its operands and of the hidden activations before each product (on extended reals a change of format is the
  identity); the other works on sixty-four bands of 1024 rows.  Inside a band both take the same sums of the same
  products in the same order, add the same bias rows and take the maximum with zero, so band by band they compute the
  rows of ONE array, "Mlp.net" of the arguments on all 65536 rows (Proof/LibMlp.lean): each row of the network's
  result depends on the same row of x only, hence a band of the result is the result of the band, for bands of either
  height (Proof/KernelValue.lean, Proof/ReferenceValue.lean).  No algebraic law beyond this regrouping of rows is
  used, so nothing here needs the inputs to be finite.

  The three frame claims are the generated frame certificates; the idealization rewrote no operation, so the
  "preserves" claim is trivial.
-/
import proofs.«101252_g2000506213749581_pallasbulk_74_22_alg».proof.Defs
import proofs.«101252_g2000506213749581_pallasbulk_74_22_alg».proof.Proof.Gen.Kernel
import proofs.«101252_g2000506213749581_pallasbulk_74_22_alg».proof.Proof.Gen.Kernel.Frame
import proofs.«101252_g2000506213749581_pallasbulk_74_22_alg».proof.Proof.Gen.KernelIdeal
import proofs.«101252_g2000506213749581_pallasbulk_74_22_alg».proof.Proof.Gen.KernelIdeal.Frame
import proofs.«101252_g2000506213749581_pallasbulk_74_22_alg».proof.Proof.Gen.KernelIdeal.Value
import proofs.«101252_g2000506213749581_pallasbulk_74_22_alg».proof.Proof.Gen.ReferenceIdeal
import proofs.«101252_g2000506213749581_pallasbulk_74_22_alg».proof.Proof.Gen.ReferenceIdeal.Frame
import proofs.«101252_g2000506213749581_pallasbulk_74_22_alg».proof.Proof.Gen.ReferenceIdeal.Value
import proofs.«101252_g2000506213749581_pallasbulk_74_22_alg».proof.Proof.Gen.Pre_finite_inputs
import proofs.«101252_g2000506213749581_pallasbulk_74_22_alg».proof.Proof.KernelValue
import proofs.«101252_g2000506213749581_pallasbulk_74_22_alg».proof.Proof.ReferenceValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The idealization rewrote nothing. -/
theorem preserves : Cert.preserves_Kernel_KernelIdeal := trivial

/-- Both result arrays end at the network of the argument arrays on all rows; the arguments agree, so the two
    arrays are one. -/
theorem algebraic : Cert.algebraic_KernelIdeal_ReferenceIdeal := by
  intro m ρ m' ρ' _ hagree
  refine ⟨fun c => Cert.KernelIdeal.Net.G m c, Cert.KernelIdeal.Net.run m ρ, ?_⟩
  refine (θ_run Cert.ReferenceIdeal.defs _ _).mono (fun _ h c => ⟨(h c).1.trans ?_, (h c).2⟩)
    (Cert.ReferenceIdeal.Net.run m' ρ')
  unfold Cert.ReferenceIdeal.Net.G Cert.KernelIdeal.Net.G
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
